-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1024 : Shape := ⟨2, ![200000, 1024]⟩
abbrev S200000 : Shape := ⟨1, ![200000]⟩
abbrev S2x4000000 : Shape := ⟨2, ![2, 4000000]⟩
abbrev S20000x2 : Shape := ⟨2, ![20000, 2]⟩
abbrev S1024x32 : Shape := ⟨2, ![1024, 32]⟩
abbrev S32x16 : Shape := ⟨2, ![32, 16]⟩
abbrev S_ : Shape := ⟨0, ![]⟩

class Facts : Prop where
  bcast_S_S200000x1024 : S_.BroadcastsInDim S200000x1024 (![] : Fin 0 → Fin S200000x1024.rank)
  reducesTo_S200000x1024_S_d0_1 : S200000x1024.ReducesTo [0, 1] S_
  h_S_ : 0 < S_.numel
  bcast_S_S200000 : S_.BroadcastsInDim S200000 (![] : Fin 0 → Fin S200000.rank)
  reducesTo_S200000_S_d0 : S200000.ReducesTo [0] S_
  bcast_S_S1024x32 : S_.BroadcastsInDim S1024x32 (![] : Fin 0 → Fin S1024x32.rank)
  reducesTo_S1024x32_S_d0_1 : S1024x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  main_v18

def fn {F : FTy → Type} [FloatOps F] (main_arg0 : FVec F S200000x1024 .f32) (main_arg1 : FVec F S200000 .f32) (main_arg2 : IVec S2x4000000 32) (main_arg3 : IVec S20000x2 32) (main_arg4 : FVec F S1024x32 .f32) (main_arg5 : FVec F S32x16 .f32) : IVec S_ 1 :=
  let main_v0 : FVec F S200000x1024 .f32 := Host.absf main_arg0
  let main_cst : FVec F S_ .f32 := constant S_ .f32 0x7F800000#32
  let main_v1 : FVec F S200000x1024 .f32 := broadcastInDim S200000x1024 ![] bcast_S_S200000x1024 main_cst
  let main_v2 : IVec S200000x1024 1 := cmpf .olt main_v0 main_v1
  let main_c : IVec S_ 1 := constantI S_ 1 1#1
  let main_v3 : IVec S_ 1 := (fun x v => Host.reduce IntOp.andi x v reducesTo_S200000x1024_S_d0_1 h_S_) main_v2 main_c
  let main_v4 : FVec F S200000 .f32 := Host.absf main_arg1
  let main_cst_0 : FVec F S_ .f32 := constant S_ .f32 0x7F800000#32
  let main_v5 : FVec F S200000 .f32 := broadcastInDim S200000 ![] bcast_S_S200000 main_cst_0
  let main_v6 : IVec S200000 1 := cmpf .olt main_v4 main_v5
  let main_c_1 : IVec S_ 1 := constantI S_ 1 1#1
  let main_v7 : IVec S_ 1 := (fun x v => Host.reduce IntOp.andi x v reducesTo_S200000_S_d0 h_S_) main_v6 main_c_1
  let main_v8 : IVec S_ 1 := andi main_v3 main_v7
  let main_v9 : FVec F S1024x32 .f32 := Host.absf main_arg4
  let main_cst_2 : FVec F S_ .f32 := constant S_ .f32 0x7F800000#32
  let main_v10 : FVec F S1024x32 .f32 := broadcastInDim S1024x32 ![] bcast_S_S1024x32 main_cst_2
  let main_v11 : IVec S1024x32 1 := cmpf .olt main_v9 main_v10
  let main_c_3 : IVec S_ 1 := constantI S_ 1 1#1
  let main_v12 : IVec S_ 1 := (fun x v => Host.reduce IntOp.andi x v reducesTo_S1024x32_S_d0_1 h_S_) main_v11 main_c_3
  let main_v13 : IVec S_ 1 := andi main_v8 main_v12
  let main_v14 : FVec F S32x16 .f32 := Host.absf main_arg5
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_v13 main_v16
-- ==== Kernel.lean ====
abbrev S200000x1024 : Shape := ⟨2, ![200000, 1024]⟩
abbrev S200000 : Shape := ⟨1, ![200000]⟩
abbrev S2x4000000 : Shape := ⟨2, ![2, 4000000]⟩
abbrev S20000x2 : Shape := ⟨2, ![20000, 2]⟩
abbrev S1024x32 : Shape := ⟨2, ![1024, 32]⟩
abbrev S32x16 : Shape := ⟨2, ![32, 16]⟩
abbrev S200000x1 : Shape := ⟨2, ![200000, 1]⟩
abbrev S200000x32 : Shape := ⟨2, ![200000, 32]⟩
abbrev S2000x1024 : Shape := ⟨2, ![2000, 1024]⟩
abbrev S2000x1 : Shape := ⟨2, ![2000, 1]⟩
abbrev S2000x32 : Shape := ⟨2, ![2000, 32]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S4000000x32 : Shape := ⟨2, ![4000000, 32]⟩
abbrev S20000x32 : Shape := ⟨2, ![20000, 32]⟩
abbrev S20000x1 : Shape := ⟨2, ![20000, 1]⟩
abbrev S20000 : Shape := ⟨1, ![20000]⟩
abbrev S20000x16 : Shape := ⟨2, ![20000, 16]⟩
abbrev S2000x16 : Shape := ⟨2, ![2000, 16]⟩

abbrev nBuf : Space → Nat
  | .hbm => 33
  | .vmem => 14
  | .smem => 0
  | _ => 0

abbrev bufTy : (tb : Table) → Fin (tcTables nBuf tb) → BufTy
  | .hbm, ⟨0, _⟩ => ⟨S200000x1024, .f32⟩
  | .hbm, ⟨1, _⟩ => ⟨S200000, .f32⟩
  | .hbm, ⟨2, _⟩ => ⟨S2x4000000, .i32⟩
  | .hbm, ⟨3, _⟩ => ⟨S20000x2, .i32⟩
  | .hbm, ⟨4, _⟩ => ⟨S1024x32, .f32⟩
  | .hbm, ⟨5, _⟩ => ⟨S32x16, .f32⟩
  | .hbm, ⟨6, _⟩ => ⟨S200000x1, .f32⟩
  | .hbm, ⟨7, _⟩ => ⟨S200000x32, .f32⟩
  | .hbm, ⟨8, _⟩ => ⟨S1x4000000, .i32⟩
  | .hbm, ⟨9, _⟩ => ⟨S4000000, .i32⟩
  | .hbm, ⟨10, _⟩ => ⟨S_, .i32⟩
  | .hbm, ⟨11, _⟩ => ⟨S4000000, .i32⟩
  | .hbm, ⟨12, _⟩ => ⟨S4000000, .i1⟩
  | .hbm, ⟨13, _⟩ => ⟨S_, .i32⟩
  | .hbm, ⟨14, _⟩ => ⟨S4000000, .i32⟩
  | .hbm, ⟨15, _⟩ => ⟨S4000000, .i32⟩
  | .hbm, ⟨16, _⟩ => ⟨S4000000, .i32⟩
  | .hbm, ⟨17, _⟩ => ⟨S4000000x1, .i32⟩
  | .hbm, ⟨18, _⟩ => ⟨S4000000x32, .f32⟩
  | .hbm, ⟨19, _⟩ => ⟨S1x4000000, .i32⟩
  | .hbm, ⟨20, _⟩ => ⟨S4000000, .i32⟩
  | .hbm, ⟨21, _⟩ => ⟨S_, .f32⟩
  | .hbm, ⟨22, _⟩ => ⟨S20000x32, .f32⟩
  | .hbm, ⟨23, _⟩ => ⟨S4000000x1, .i32⟩
  | .hbm, ⟨24, _⟩ => ⟨S20000x32, .f32⟩
  | .hbm, ⟨25, _⟩ => ⟨S20000x1, .i32⟩
  | .hbm, ⟨26, _⟩ => ⟨S20000, .i32⟩
  | .hbm, ⟨27, _⟩ => ⟨S20000x1, .i32⟩
  | .hbm, ⟨28, _⟩ => ⟨S20000, .i32⟩
  | .hbm, ⟨29, _⟩ => ⟨S20000, .i32⟩
  | .hbm, ⟨30, _⟩ => ⟨S20000, .f32⟩
  | .hbm, ⟨31, _⟩ => ⟨S20000x1, .f32⟩
  | .hbm, ⟨32, _⟩ => ⟨S20000x16, .f32⟩
  | .local _ .vmem, ⟨0, _⟩ => ⟨S2000x1024, .f32⟩
  | .local _ .vmem, ⟨1, _⟩ => ⟨S2000x1024, .f32⟩
  | .local _ .vmem, ⟨2, _⟩ => ⟨S1024x32, .f32⟩
  | .local _ .vmem, ⟨3, _⟩ => ⟨S2000x1, .f32⟩
  | .local _ .vmem, ⟨4, _⟩ => ⟨S2000x1, .f32⟩
  | .local _ .vmem, ⟨5, _⟩ => ⟨S2000x32, .f32⟩
  | .local _ .vmem, ⟨6, _⟩ => ⟨S2000x32, .f32⟩
  | .local _ .vmem, ⟨7, _⟩ => ⟨S2000x32, .f32⟩
  | .local _ .vmem, ⟨8, _⟩ => ⟨S2000x32, .f32⟩
  | .local _ .vmem, ⟨9, _⟩ => ⟨S2000x1, .f32⟩
  | .local _ .vmem, ⟨10, _⟩ => ⟨S2000x1, .f32⟩
  | .local _ .vmem, ⟨11, _⟩ => ⟨S32x16, .f32⟩
  | .local _ .vmem, ⟨12, _⟩ => ⟨S2000x16, .f32⟩
  | .local _ .vmem, ⟨13, _⟩ => ⟨S2000x16, .f32⟩
  | _, _ => ⟨S200000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S200000_S200000x1 : S200000.ShapeCasts S200000x1
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S1024x32_S1024x32_0_0 : ∀ a, (![0, 0] : Fin 2 → Nat) a + S1024x32.size a ≤ S1024x32.size a
  h_S1024x32 : 0 < S1024x32.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x32 : S2000x1.Broadcasts S2000x32
  inb_S2000x32_S2000x32_0_0 : ∀ a, (![0, 0] : Fin 2 → Nat) a + S2000x32.size a ≤ S2000x32.size a
  h_S2000x32 : 0 < S2000x32.numel
  slices_S2x4000000_S1x4000000_0_0 : S2x4000000.Slices ![0, 0] S1x4000000
  shapeCasts_S1x4000000_S4000000 : S1x4000000.ShapeCasts S4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  slices_S2x4000000_S1x4000000_1_0 : S2x4000000.Slices ![1, 0] S1x4000000
  bcast_S_S20000x32 : S_.BroadcastsInDim S20000x32 (![] : Fin 0 → Fin S20000x32.rank)
  slices_S20000x2_S20000x1_0_1 : S20000x2.Slices ![0, 1] S20000x1
  shapeCasts_S20000x1_S20000 : S20000x1.ShapeCasts S20000
  slices_S20000x2_S20000x1_0_0 : S20000x2.Slices ![0, 0] S20000x1
  shapeCasts_S20000_S20000x1 : S20000.ShapeCasts S20000x1
  shapeCasts_S2000x32_S2000x32 : S2000x32.ShapeCasts S2000x32
  inb_S32x16_S32x16_0_0 : ∀ a, (![0, 0] : Fin 2 → Nat) a + S32x16.size a ≤ S32x16.size a
  h_S32x16 : 0 < S32x16.numel
  inb_S2000x16_S2000x16_0_0 : ∀ a, (![0, 0] : Fin 2 → Nat) a + S2000x16.size a ≤ S2000x16.size a
  h_S2000x16 : 0 < S2000x16.numel
  dot_S2000x1024_S1024x32_S2000x32_1_0_0_1_n_n_wf : DotDims.WF S2000x1024 S1024x32 S2000x32 [1] [0] [0] [1] [] []
  gather_S200000x32_S4000000x1_S4000000x32_1_0_n_n_0_1_132_wf : GatherDims.WF S200000x32 S4000000x1 S4000000x32 [1] [0] [] [0] [] 1 ![1, 32]
  scatter_S20000x32_S4000000x1_S4000000x32_1_0_0_1_wf : ScatterDims.WF S20000x32 S4000000x1 S4000000x32 [1] [0] [0] 1
  dot_S2000x32_S32x16_S2000x16_1_0_0_1_n_n_wf : DotDims.WF S2000x32 S32x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S200000x1024.size a
  hwx0_0 : ∀ i : grid0.Coords, EltTy.bits .f32 = 32 ∨ (Rect.block (s := S200000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S1024x32.size a
  hwx0_1 : ∀ i : grid0.Coords, EltTy.bits .f32 = 32 ∨ (Rect.block (s := S1024x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S200000x1.size a
  hwx0_2 : ∀ i : grid0.Coords, EltTy.bits .f32 = 32 ∨ (Rect.block (s := S200000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x32.size a ≤ S200000x32.size a
  hwx0_3 : ∀ i : grid0.Coords, EltTy.bits .f32 = 32 ∨ (Rect.block (s := S200000x32) S2000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S20000x32.size a
  hwx1_0 : ∀ i : grid1.Coords, EltTy.bits .f32 = 32 ∨ (Rect.block (s := S20000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S20000x1.size a
  hwx1_1 : ∀ i : grid1.Coords, EltTy.bits .f32 = 32 ∨ (Rect.block (s := S20000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x16.size a ≤ S20000x16.size a
  hwx1_3 : ∀ i : grid1.Coords, EltTy.bits .f32 = 32 ∨ (Rect.block (s := S20000x16) S2000x16.size (cc1_transform_3 i) (hinb1_3 i)).WholeWords (EltTy.packing .f32)

variable [Facts₀]

def dot_S2000x1024_S1024x32_S2000x32_1_0_0_1_n_n : DotDims S2000x1024 S1024x32 S2000x32 where
  lhsContracting := [1]
  rhsContracting := [0]
  lhsNonContracting := [0]
  rhsNonContracting := [1]
  lhsBatch := []
  rhsBatch := []
  wf := dot_S2000x1024_S1024x32_S2000x32_1_0_0_1_n_n_wf
def gather_S200000x32_S4000000x1_S4000000x32_1_0_n_n_0_1_132 : GatherDims S200000x32 S4000000x1 S4000000x32 where
  offsetDims := [1]
  collapsedSliceDims := [0]
  operandBatchingDims := []
  startIndicesBatchingDims := []
  startIndexMap := [0]
  indexVectorDim := 1
  sliceSizes := ![1, 32]
  wf := gather_S200000x32_S4000000x1_S4000000x32_1_0_n_n_0_1_132_wf
def scatter_S20000x32_S4000000x1_S4000000x32_1_0_0_1 : ScatterDims S20000x32 S4000000x1 S4000000x32 where
  updateWindowDims := [1]
  insertedWindowDims := [0]
  scatterDimsToOperandDims := [0]
  indexVectorDim := 1
  wf := scatter_S20000x32_S4000000x1_S4000000x32_1_0_0_1_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S2000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S200000x1024 : Shape := ⟨2, ![200000, 1024]⟩
abbrev S200000 : Shape := ⟨1, ![200000]⟩
abbrev S2x4000000 : Shape := ⟨2, ![2, 4000000]⟩
abbrev S20000x2 : Shape := ⟨2, ![20000, 2]⟩
abbrev S1024x32 : Shape := ⟨2, ![1024, 32]⟩
abbrev S32x16 : Shape := ⟨2, ![32, 16]⟩
abbrev S200000x32 : Shape := ⟨2, ![200000, 32]⟩
abbrev S200000x1 : Shape := ⟨2, ![200000, 1]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S4000000x32 : Shape := ⟨2, ![4000000, 32]⟩
abbrev S20000x32 : Shape := ⟨2, ![20000, 32]⟩
abbrev S20000x1 : Shape := ⟨2, ![20000, 1]⟩
abbrev S20000 : Shape := ⟨1, ![20000]⟩
abbrev S20000x16 : Shape := ⟨2, ![20000, 16]⟩

abbrev nBuf : Space → Nat
  | .hbm => 40
  | .vmem => 0
  | .smem => 0
  | _ => 0

abbrev bufTy : (tb : Table) → Fin (tcTables nBuf tb) → BufTy
  | .hbm, ⟨0, _⟩ => ⟨S200000x1024, .f32⟩
  | .hbm, ⟨1, _⟩ => ⟨S200000, .f32⟩
  | .hbm, ⟨2, _⟩ => ⟨S2x4000000, .i32⟩
  | .hbm, ⟨3, _⟩ => ⟨S20000x2, .i32⟩
  | .hbm, ⟨4, _⟩ => ⟨S1024x32, .f32⟩
  | .hbm, ⟨5, _⟩ => ⟨S32x16, .f32⟩
  | .hbm, ⟨6, _⟩ => ⟨S200000x32, .f32⟩
  | .hbm, ⟨7, _⟩ => ⟨S200000x1, .f32⟩
  | .hbm, ⟨8, _⟩ => ⟨S200000x32, .f32⟩
  | .hbm, ⟨9, _⟩ => ⟨S200000x32, .f32⟩
  | .hbm, ⟨10, _⟩ => ⟨S1x4000000, .i32⟩
  | .hbm, ⟨11, _⟩ => ⟨S4000000, .i32⟩
  | .hbm, ⟨12, _⟩ => ⟨S_, .i32⟩
  | .hbm, ⟨13, _⟩ => ⟨S4000000, .i32⟩
  | .hbm, ⟨14, _⟩ => ⟨S4000000, .i1⟩
  | .hbm, ⟨15, _⟩ => ⟨S_, .i32⟩
  | .hbm, ⟨16, _⟩ => ⟨S4000000, .i32⟩
  | .hbm, ⟨17, _⟩ => ⟨S4000000, .i32⟩
  | .hbm, ⟨18, _⟩ => ⟨S4000000, .i32⟩
  | .hbm, ⟨19, _⟩ => ⟨S4000000x1, .i32⟩
  | .hbm, ⟨20, _⟩ => ⟨S4000000x32, .f32⟩
  | .hbm, ⟨21, _⟩ => ⟨S1x4000000, .i32⟩
  | .hbm, ⟨22, _⟩ => ⟨S4000000, .i32⟩
  | .hbm, ⟨23, _⟩ => ⟨S_, .f32⟩
  | .hbm, ⟨24, _⟩ => ⟨S20000x32, .f32⟩
  | .hbm, ⟨25, _⟩ => ⟨S4000000x1, .i32⟩
  | .hbm, ⟨26, _⟩ => ⟨S20000x32, .f32⟩
  | .hbm, ⟨27, _⟩ => ⟨S20000x1, .i32⟩
  | .hbm, ⟨28, _⟩ => ⟨S20000, .i32⟩
  | .hbm, ⟨29, _⟩ => ⟨S20000x1, .i32⟩
  | .hbm, ⟨30, _⟩ => ⟨S20000, .i32⟩
  | .hbm, ⟨31, _⟩ => ⟨S20000, .i32⟩
  | .hbm, ⟨32, _⟩ => ⟨S20000, .f32⟩
  | .hbm, ⟨33, _⟩ => ⟨S_, .f32⟩
  | .hbm, ⟨34, _⟩ => ⟨S20000, .f32⟩
  | .hbm, ⟨35, _⟩ => ⟨S20000, .f32⟩
  | .hbm, ⟨36, _⟩ => ⟨S20000x1, .f32⟩
  | .hbm, ⟨37, _⟩ => ⟨S20000x32, .f32⟩
  | .hbm, ⟨38, _⟩ => ⟨S20000x32, .f32⟩
  | .hbm, ⟨39, _⟩ => ⟨S20000x16, .f32⟩
  | _, _ => ⟨S200000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  bcast_S200000_S200000x1_0 : S200000.BroadcastsInDim S200000x1 (![0] : Fin 1 → Fin S200000x1.rank)
  bcast_S200000x1_S200000x32_0_1 : S200000x1.BroadcastsInDim S200000x32 (![0, 1] : Fin 2 → Fin S200000x32.rank)
  slices_S2x4000000_S1x4000000_0_0 : S2x4000000.Slices ![0, 0] S1x4000000
  shapeCasts_S1x4000000_S4000000 : S1x4000000.ShapeCasts S4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  slices_S2x4000000_S1x4000000_1_0 : S2x4000000.Slices ![1, 0] S1x4000000
  bcast_S_S20000x32 : S_.BroadcastsInDim S20000x32 (![] : Fin 0 → Fin S20000x32.rank)
  slices_S20000x2_S20000x1_0_1 : S20000x2.Slices ![0, 1] S20000x1
  shapeCasts_S20000x1_S20000 : S20000x1.ShapeCasts S20000
  slices_S20000x2_S20000x1_0_0 : S20000x2.Slices ![0, 0] S20000x1
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x32_0_1 : S20000x1.BroadcastsInDim S20000x32 (![0, 1] : Fin 2 → Fin S20000x32.rank)
  dot_S200000x1024_S1024x32_S200000x32_1_0_0_1_n_n_wf : DotDims.WF S200000x1024 S1024x32 S200000x32 [1] [0] [0] [1] [] []
  gather_S200000x32_S4000000x1_S4000000x32_1_0_n_n_0_1_132_wf : GatherDims.WF S200000x32 S4000000x1 S4000000x32 [1] [0] [] [0] [] 1 ![1, 32]
  scatter_S20000x32_S4000000x1_S4000000x32_1_0_0_1_wf : ScatterDims.WF S20000x32 S4000000x1 S4000000x32 [1] [0] [0] 1
  dot_S20000x32_S32x16_S20000x16_1_0_0_1_n_n_wf : DotDims.WF S20000x32 S32x16 S20000x16 [1] [0] [0] [1] [] []

variable [Facts₀]

def dot_S200000x1024_S1024x32_S200000x32_1_0_0_1_n_n : DotDims S200000x1024 S1024x32 S200000x32 where
  lhsContracting := [1]
  rhsContracting := [0]
  lhsNonContracting := [0]
  rhsNonContracting := [1]
  lhsBatch := []
  rhsBatch := []
  wf := dot_S200000x1024_S1024x32_S200000x32_1_0_0_1_n_n_wf
def gather_S200000x32_S4000000x1_S4000000x32_1_0_n_n_0_1_132 : GatherDims S200000x32 S4000000x1 S4000000x32 where
  offsetDims := [1]
  collapsedSliceDims := [0]
  operandBatchingDims := []
  startIndicesBatchingDims := []
  startIndexMap := [0]
  indexVectorDim := 1
  sliceSizes := ![1, 32]
  wf := gather_S200000x32_S4000000x1_S4000000x32_1_0_n_n_0_1_132_wf
def scatter_S20000x32_S4000000x1_S4000000x32_1_0_0_1 : ScatterDims S20000x32 S4000000x1 S4000000x32 where
  updateWindowDims := [1]
  insertedWindowDims := [0]
  scatterDimsToOperandDims := [0]
  indexVectorDim := 1
  wf := scatter_S20000x32_S4000000x1_S4000000x32_1_0_0_1_wf
def dot_S20000x32_S32x16_S20000x16_1_0_0_1_n_n : DotDims S20000x32 S32x16 S20000x16 where
  lhsContracting := [1]
  rhsContracting := [0]
  lhsNonContracting := [0]
  rhsNonContracting := [1]
  lhsBatch := []
  rhsBatch := []
  wf := dot_S20000x32_S32x16_S20000x16_1_0_0_1_n_n_wf

class Facts : Prop extends Facts₀ where

variable [Facts]
-- ==== Proof.KernelRun.lean ====
/-
  The kernel program's run with its result named.

  The program is two pipelined regions among two stretches of host operations. The buffer contents at each boundary are
  a fold from the launch memory: after the first stretch, after the first region (its output array at what the
  write-backs leave), after the second stretch, after the second region. Every weakly fair execution terminates with
  every unscoped buffer at the last boundary's contents; read at the result buffer this names the result as the last
  fold's value there, and at each argument it gives back the launch contents.
-/
import proofs.«160293_j32435593019950_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the six argument arrays as launched. -/
theorem run : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.RunValue

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.MeanAggregate.lean ====
/-
  The two dense stages of a normalised mean aggregation, as whole-array functions on the extended reals.

  `embedded a e n` is the row-normalised projection: entry (p, q) is (Σ k, a (p, k) · e (k, q)) / n (p, 0), the
  product of an [M, K] array with a [K, P] array, each row divided by that row's entry of an [M, 1] column.

  `projected s d w` is the degree-normalised output projection: entry (p, q) is
  Σ k, (s (p, k) / max (d (p, 0)) 1) · w (k, q) — each row of an [M, K] array of per-segment sums divided by the row's
  degree (never less than one), then multiplied by a [K, P] array.

  Both are stated for arbitrary extents; nothing here depends on a program.
-/
import Idealize.ShloMosaic.PureOps.Ideal.Laws
import Idealize.ShloMosaic.Lib.ValueIdx

noncomputable section

open scoped BigOperators

namespace Cert.MeanAggregate

open Idealize.ShloMosaic Idealize.ShloMosaic.ValueIdx

/-- The float pattern of the real number one, as an extended real. -/
abbrev one : EReal := Ideal.ofBits .f32 0x3F800000#32

/-- Row-normalised projection: (Σ k, a (p, k) · e (k, q)) / n (p, 0). -/
def embedded {M K P : ℕ} (a : (⟨2, ![M, K]⟩ : Shape).Idx → EReal) (e : (⟨2, ![K, P]⟩ : Shape).Idx → EReal)
    (n : (⟨2, ![M, 1]⟩ : Shape).Idx → EReal) : (⟨2, ![M, P]⟩ : Shape).Idx → EReal :=
  fun i => Ideal.div (∑ k : Fin K, a (ix2 (i 0) k) * e (ix2 k (i 1))) (n (ix2 (i 0) (0 : Fin 1)))

theorem embedded_ix2 {M K P : ℕ} (a : (⟨2, ![M, K]⟩ : Shape).Idx → EReal) (e : (⟨2, ![K, P]⟩ : Shape).Idx → EReal)
    (n : (⟨2, ![M, 1]⟩ : Shape).Idx → EReal) (p : Fin M) (q : Fin P) :
    embedded a e n (ix2 p q) = Ideal.div (∑ k : Fin K, a (ix2 p k) * e (ix2 k q)) (n (ix2 p (0 : Fin 1))) := rfl

/-- Degree-normalised output projection: Σ k, (s (p, k) / max (d (p, 0)) 1) · w (k, q). -/
def projected {M K P : ℕ} (s : (⟨2, ![M, K]⟩ : Shape).Idx → EReal) (d : (⟨2, ![M, 1]⟩ : Shape).Idx → EReal)
    (w : (⟨2, ![K, P]⟩ : Shape).Idx → EReal) : (⟨2, ![M, P]⟩ : Shape).Idx → EReal :=
  fun i => ∑ k : Fin K, Ideal.div (s (ix2 (i 0) k)) (max (d (ix2 (i 0) (0 : Fin 1))) one) * w (ix2 k (i 1))

theorem projected_ix2 {M K P : ℕ} (s : (⟨2, ![M, K]⟩ : Shape).Idx → EReal) (d : (⟨2, ![M, 1]⟩ : Shape).Idx → EReal)
    (w : (⟨2, ![K, P]⟩ : Shape).Idx → EReal) (p : Fin M) (q : Fin P) :
    projected s d w (ix2 p q)
      = ∑ k : Fin K, Ideal.div (s (ix2 p k)) (max (d (ix2 p (0 : Fin 1))) one) * w (ix2 k q) := rfl

/-- A vector written as a one-column array: entry (p, u) is the vector's entry p. -/
def col {M : ℕ} (v : (⟨1, ![M]⟩ : Shape).Idx → EReal) : (⟨2, ![M, 1]⟩ : Shape).Idx → EReal := fun i => v (ix1 (i 0))

/-- The row-normalised projection reads its column only at (p, 0). -/
theorem embedded_congr_col {M K P : ℕ} (a : (⟨2, ![M, K]⟩ : Shape).Idx → EReal) (e : (⟨2, ![K, P]⟩ : Shape).Idx → EReal)
    (n n' : (⟨2, ![M, 1]⟩ : Shape).Idx → EReal) (h : ∀ p : Fin M, n (ix2 p (0 : Fin 1)) = n' (ix2 p (0 : Fin 1))) :
    embedded a e n = embedded a e n' := by
  funext i
  obtain ⟨p, q, rfl⟩ : ∃ (p : Fin M) (q : Fin P), i = ix2 p q := ⟨i 0, i 1, eq_ix2 i⟩
  rw [embedded_ix2, embedded_ix2, h]

/-- The degree-normalised projection reads its column only at (p, 0). -/
theorem projected_congr_col {M K P : ℕ} (s : (⟨2, ![M, K]⟩ : Shape).Idx → EReal) (d d' : (⟨2, ![M, 1]⟩ : Shape).Idx → EReal)
    (w : (⟨2, ![K, P]⟩ : Shape).Idx → EReal) (h : ∀ p : Fin M, d (ix2 p (0 : Fin 1)) = d' (ix2 p (0 : Fin 1))) :
    projected s d w = projected s d' w := by
  funext i
  obtain ⟨p, q, rfl⟩ : ∃ (p : Fin M) (q : Fin P), i = ix2 p q := ⟨i 0, i 1, eq_ix2 i⟩
  rw [projected_ix2, projected_ix2, h]

end Cert.MeanAggregate

end
-- ==== Proof.Bodies.lean ====
/-
  What each of the two kernel bodies stores, read at one element, on the extended reals.

  The first body multiplies its [2000, 1024] block by the whole [1024, 32] matrix and divides each row by that row's
  entry of the [2000, 1] column block: at (p, q) it stores (Σ k, x (p, k) · e (k, q)) / n (p, 0). The second divides each
  row of its [2000, 32] block by the larger of the row's degree and one and multiplies by the whole [32, 16] matrix: at
  (p, q) it stores Σ k, (s (p, k) / max (d (p, 0)) 1) · w (k, q). A change of float format is the identity here, so the
  narrowing of the product's operands does not appear.
-/
import proofs.«160293_j32435593019950_1_alg».proof.Proof.Gen.KernelIdeal.Skeleton
import proofs.«160293_j32435593019950_1_alg».proof.Proof.LibPlainDot
import proofs.«160293_j32435593019950_1_alg».proof.Proof.LibColumn
import proofs.«160293_j32435593019950_1_alg».proof.Proof.MeanAggregate
import Idealize.ShloMosaic.Lib.Pipeline.Value

noncomputable section

open scoped BigOperators

namespace Cert.KernelIdeal.Bodies

open Cert.KernelIdeal Cert.KernelIdeal.Gen Idealize.ShloMosaic Idealize.ShloMosaic.ValueIdx

/-- The [2000, 1024] × [1024, 32] product's left index keeps the row. -/
theorem dotA_l0 (j : S2000x32.Idx) (c : dot_S2000x1024_S1024x32_S2000x32_1_0_0_1_n_n.contr.Idx) :
    (dot_S2000x1024_S1024x32_S2000x32_1_0_0_1_n_n.lhsIdx j c 0).val = (j 0).val := by
  unfold DotDims.lhsIdx
  rw [dif_neg (show ¬(0 : Fin S2000x1024.rank) ∈ dot_S2000x1024_S1024x32_S2000x32_1_0_0_1_n_n.lhsBatch by decide),
    dif_pos (show (0 : Fin S2000x1024.rank) ∈ dot_S2000x1024_S1024x32_S2000x32_1_0_0_1_n_n.lhsNonContracting by decide)]
  rfl

/-- … and its right index keeps the column. -/
theorem dotA_r1 (j : S2000x32.Idx) (c : dot_S2000x1024_S1024x32_S2000x32_1_0_0_1_n_n.contr.Idx) :
    (dot_S2000x1024_S1024x32_S2000x32_1_0_0_1_n_n.rhsIdx j c 1).val = (j 1).val := by
  unfold DotDims.rhsIdx
  rw [dif_neg (show ¬(1 : Fin S1024x32.rank) ∈ dot_S2000x1024_S1024x32_S2000x32_1_0_0_1_n_n.rhsBatch by decide),
    dif_pos (show (1 : Fin S1024x32.rank) ∈ dot_S2000x1024_S1024x32_S2000x32_1_0_0_1_n_n.rhsNonContracting by decide)]
  rfl

/-- The [2000, 32] × [32, 16] product's left index keeps the row. -/
theorem dotB_l0 (j : S2000x16.Idx) (c : dot_S2000x32_S32x16_S2000x16_1_0_0_1_n_n.contr.Idx) :
    (dot_S2000x32_S32x16_S2000x16_1_0_0_1_n_n.lhsIdx j c 0).val = (j 0).val := by
  unfold DotDims.lhsIdx
  rw [dif_neg (show ¬(0 : Fin S2000x32.rank) ∈ dot_S2000x32_S32x16_S2000x16_1_0_0_1_n_n.lhsBatch by decide),
    dif_pos (show (0 : Fin S2000x32.rank) ∈ dot_S2000x32_S32x16_S2000x16_1_0_0_1_n_n.lhsNonContracting by decide)]
  rfl

/-- … and its right index keeps the column. -/
theorem dotB_r1 (j : S2000x16.Idx) (c : dot_S2000x32_S32x16_S2000x16_1_0_0_1_n_n.contr.Idx) :
    (dot_S2000x32_S32x16_S2000x16_1_0_0_1_n_n.rhsIdx j c 1).val = (j 1).val := by
  unfold DotDims.rhsIdx
  rw [dif_neg (show ¬(1 : Fin S32x16.rank) ∈ dot_S2000x32_S32x16_S2000x16_1_0_0_1_n_n.rhsBatch by decide),
    dif_pos (show (1 : Fin S32x16.rank) ∈ dot_S2000x32_S32x16_S2000x16_1_0_0_1_n_n.rhsNonContracting by decide)]
  rfl

/-- The first body's stored value at (p, q): the row of the block against the column of the matrix, over the row's
    normaliser. -/
theorem embed_body (x0 : Vec Ideal S2000x1024 .f32) (x1 : Vec Ideal S1024x32 .f32) (x2 : Vec Ideal S2000x1 .f32)
    (p : Fin 2000) (q : Fin 32) :
    k0_pay1 (F := Ideal) x0 x1 x2 (ix2 p q)
      = Ideal.div (∑ k : Fin 1024, x0 (ix2 p k) * x1 (ix2 k q)) (x2 (ix2 p (0 : Fin 1))) := by
  unfold k0_pay1
  refine congrArg₂ Ideal.div ?_ ?_
  · exact Cert.LibPlainDot.matmul_zero_apply dot_S2000x1024_S1024x32_S2000x32_1_0_0_1_n_n rfl rfl dotA_l0 dotA_r1 rfl rfl none
      _ _ p q
  · refine (Cert.LibColumn.broadcastTo_a1_ab_apply _ broadcasts_S2000x1_S2000x32 p q).trans ?_
    rw [shapeCast_self]

/-- The second body's stored value at (p, q): the row of per-segment sums, each over the larger of the row's degree and
    one, against the column of the matrix. -/
theorem proj_body (v0 : Vec Ideal S2000x32 .f32) (v2 : Vec Ideal S2000x1 .f32) (v9 : Vec Ideal S32x16 .f32)
    (p : Fin 2000) (q : Fin 16) :
    k1_pay1 (F := Ideal) v0 v2 v9 (ix2 p q)
      = ∑ k : Fin 32, Ideal.div (v0 (ix2 p k)) (max (v2 (ix2 p (0 : Fin 1))) Cert.MeanAggregate.one) * v9 (ix2 k q) := by
  unfold k1_pay1
  refine (Cert.LibPlainDot.matmul_zero_apply dot_S2000x32_S32x16_S2000x16_1_0_0_1_n_n rfl rfl dotB_l0 dotB_r1 rfl rfl none
      _ _ p q).trans ?_
  refine Finset.sum_congr rfl fun k _ => ?_
  refine congrArg₂ (· * ·) ?_ rfl
  refine congrArg₂ Ideal.div ?_ ?_
  · exact congrFun (shapeCast_self v0 shapeCasts_S2000x32_S2000x32) (ix2 p k)
  · refine (Cert.LibColumn.broadcastTo_a1_ab_apply _ broadcasts_S2000x1_S2000x32 p k).trans ?_
    exact congrArg₂ max (congrFun (shapeCast_self v2 shapeCasts_S2000x1_S2000x1) (ix2 p (0 : Fin 1))) rfl

end Cert.KernelIdeal.Bodies

end
-- ==== Proof.EmbedRegion.lean ====
/-
  The first region's output array, as one function of the arrays the region finds.

  The region walks 100 grid points; point t reads rows 2000·t … 2000·t + 1999 of the [200000, 1024] array and of the
  [200000, 1] column, the whole [1024, 32] matrix, and writes back rows 2000·t … 2000·t + 1999 of the [200000, 32]
  output. What point t writes is block t of the row-normalised projection of the whole arrays, because entry (p, q) of
  that projection depends only on row p of the first array and of the column. The 100 blocks tile the output, so after
  the region the output array is the row-normalised projection.
-/
import proofs.«160293_j32435593019950_1_alg».proof.Proof.Gen.KernelIdeal.Frame
import proofs.«160293_j32435593019950_1_alg».proof.Proof.Bodies
import Idealize.ShloMosaic.Lib.Pipeline.Value

set_option maxRecDepth 16384

noncomputable section

open scoped BigOperators

namespace Cert.KernelIdeal.EmbedRegion

open Cert.KernelIdeal Cert.KernelIdeal.Gen Idealize.ShloMosaic Idealize.ShloMosaic.TcCoe Idealize.ShloMosaic.ValueIdx
open Idealize.SL.Sem Cert.MeanAggregate

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-blocked windows sit at block row t, the matrix at the origin. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the row-normalised projection of the arrays as the region finds them. -/
theorem flushed_eq (c : Dev nD) (t : Fin cfg0.N) :
    (dat0 (F := Ideal) V c).flushed 3 t
      = ((cfg0.win 3).blk t).view.read (Elt Ideal) (embedded (V c main_arg0) (V c main_arg4) (V c main_v0)) := by
  show (cfg0.win 3).cut (grid0.coords t) ((dat0 V c).after 3 t) = _
  rw [after0_3]
  unfold out0_3
  rw [View.canon_unit_zero origin]
  simp only [View.ld_unit_zero (S := S2000x1024) origin, View.ld_unit_zero (S := S1024x32) origin,
    View.ld_unit_zero (S := S2000x1) origin]
  obtain ⟨e00, e01, e10, e11, e20, e21, e30, e31⟩ := blockIndex t
  have ht : t.val < 100 := t.isLt
  funext j
  obtain ⟨p, q, rfl⟩ : ∃ (p : Fin 2000) (q : Fin 32), j = ix2 p q := ⟨j 0, j 1, eq_ix2 j⟩
  show k0_pay1 (iblk0 V c 0 t) (iblk0 V c 1 t) (iblk0 V c 2 t) (ix2 p q)
    = embedded (V c main_arg0) (V c main_arg4) (V c main_v0) (((cfg0.win 3).blk t).view.emb (ix2 p q))
  refine (Cert.KernelIdeal.Bodies.embed_body _ _ _ p q).trans ?_
  have hrow : t.val * 2000 + p.val < 200000 := by have := p.isLt; omega
  have he : ((cfg0.win 3).blk t).view.emb (ix2 p q) = ix2 (⟨t.val * 2000 + p.val, hrow⟩ : Fin 200000) q := by
    funext a; apply Fin.ext
    match a with
    | ⟨0, _⟩ => show win0_3.index t (0 : Fin 2) * 2000 + 1 * p.val = t.val * 2000 + p.val; omega
    | ⟨1, _⟩ => show win0_3.index t (1 : Fin 2) * 32 + 1 * q.val = q.val; omega
  rw [he, embedded_ix2]
  refine congrArg₂ Ideal.div (Finset.sum_congr rfl fun k _ => congrArg₂ (· * ·) ?_ ?_) ?_
  · have h0 : ((cfg0.win 0).blk t).view.emb (ix2 p k) = ix2 (⟨t.val * 2000 + p.val, hrow⟩ : Fin 200000) k := by
      funext a; apply Fin.ext
      match a with
      | ⟨0, _⟩ => show win0_0.index t (0 : Fin 2) * 2000 + 1 * p.val = t.val * 2000 + p.val; omega
      | ⟨1, _⟩ => show win0_0.index t (1 : Fin 2) * 1024 + 1 * k.val = k.val; omega
    show V c main_arg0 (((cfg0.win 0).blk t).view.emb (ix2 p k)) = V c main_arg0 (ix2 ⟨t.val * 2000 + p.val, hrow⟩ k)
    rw [h0]
  · have h1 : ((cfg0.win 1).blk t).view.emb (ix2 k q) = ix2 k q := by
      funext a; apply Fin.ext
      match a with
      | ⟨0, _⟩ => show win0_1.index t (0 : Fin 2) * 1024 + 1 * k.val = k.val; omega
      | ⟨1, _⟩ => show win0_1.index t (1 : Fin 2) * 32 + 1 * q.val = q.val; omega
    show V c main_arg4 (((cfg0.win 1).blk t).view.emb (ix2 k q)) = V c main_arg4 (ix2 k q)
    rw [h1]
  · have h2 : ((cfg0.win 2).blk t).view.emb (ix2 p (0 : Fin 1)) = ix2 (⟨t.val * 2000 + p.val, hrow⟩ : Fin 200000) (0 : Fin 1) := by
      funext a; apply Fin.ext
      match a with
      | ⟨0, _⟩ => show win0_2.index t (0 : Fin 2) * 2000 + 1 * p.val = t.val * 2000 + p.val; omega
      | ⟨1, _⟩ => show win0_2.index t (1 : Fin 2) * 1 + 1 * 0 = 0; omega
    show V c main_v0 (((cfg0.win 2).blk t).view.emb (ix2 p (0 : Fin 1))) = V c main_v0 (ix2 ⟨t.val * 2000 + p.val, hrow⟩ (0 : Fin 1))
    rw [h2]

/-- An index of the output array is in point t's block iff each coordinate is in the block's range on its axis. -/
theorem mem_blk (t : Fin cfg0.N) (i : S200000x32.Idx) :
    i ∈ ((cfg0.win 3).blk t).view.set ↔ ∀ a : Fin 2, win0_3.index t a * S2000x32.size a ≤ (i a).val
      ∧ (i a).val < win0_3.index t a * S2000x32.size a + S2000x32.size a := by
  show i ∈ ((View.whole main_v1).slice (win0_3.rect t)).set ↔ _
  rw [View.set_slice_whole, Rect.mem_set_unit]
  exact Iff.rfl

/-- Every index of the output array is in some point's block: row r is in block r / 2000. -/
theorem cover (i : S200000x32.Idx) :
    ∃ t : Fin cfg0.N, (cfg0.win 3).flush t = true ∧ i ∈ ((cfg0.win 3).blk t).view.set := by
  have hi0 : (i 0).val < 200000 := (i 0).isLt
  have hi1 : (i 1).val < 32 := (i 1).isLt
  have hN : (i 0).val / 2000 < cfg0.N := by show _ < 100; omega
  refine ⟨⟨(i 0).val / 2000, hN⟩, flush0_3 _, ?_⟩
  obtain ⟨-, -, -, -, -, -, e30, e31⟩ := blockIndex ⟨(i 0).val / 2000, hN⟩
  rw [mem_blk]
  intro a
  match a with
  | ⟨0, _⟩ =>
    show win0_3.index ⟨(i 0).val / 2000, hN⟩ (0 : Fin 2) * 2000 ≤ (i 0).val
      ∧ (i 0).val < win0_3.index ⟨(i 0).val / 2000, hN⟩ (0 : Fin 2) * 2000 + 2000
    rw [e30]; show (i 0).val / 2000 * 2000 ≤ (i 0).val ∧ (i 0).val < (i 0).val / 2000 * 2000 + 2000; omega
  | ⟨1, _⟩ =>
    show win0_3.index ⟨(i 0).val / 2000, hN⟩ (1 : Fin 2) * 32 ≤ (i 1).val
      ∧ (i 1).val < win0_3.index ⟨(i 0).val / 2000, hN⟩ (1 : Fin 2) * 32 + 32
    rw [e31]; omega

/-- After the region its output array is the row-normalised projection of the arrays it found. -/
theorem final (c : Dev nD) :
    (dat0 (F := Ideal) V c).arrAt 3 cfg0.N = embedded (V c main_arg0) (V c main_arg4) (V c main_v0) :=
  (dat0 (F := Ideal) V c).arrAt_eq_of_cover 3 _ (fun t _ => flushed_eq V c t) cover

end Cert.KernelIdeal.EmbedRegion

end
-- ==== Proof.ProjRegion.lean ====
/-
  The second region's output array, as one function of the arrays the region finds.

  The region walks 10 grid points; point t reads rows 2000·t … 2000·t + 1999 of the [20000, 32] array of per-target sums
  and of the [20000, 1] degree column, the whole [32, 16] matrix, and writes back rows 2000·t … 2000·t + 1999 of the
  [20000, 16] output. What point t writes is block t of the degree-normalised projection of the whole arrays, because
  entry (p, q) of that projection depends only on row p of the sums and of the degrees. The 10 blocks tile the output,
  so after the region the output array is the degree-normalised projection.
-/
import proofs.«160293_j32435593019950_1_alg».proof.Proof.Gen.KernelIdeal.Frame
import proofs.«160293_j32435593019950_1_alg».proof.Proof.Bodies
import Idealize.ShloMosaic.Lib.Pipeline.Value

set_option maxRecDepth 16384

noncomputable section

open scoped BigOperators

namespace Cert.KernelIdeal.ProjRegion

open Cert.KernelIdeal Cert.KernelIdeal.Gen Idealize.ShloMosaic Idealize.ShloMosaic.TcCoe Idealize.ShloMosaic.ValueIdx
open Idealize.SL.Sem Cert.MeanAggregate

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-blocked windows sit at block row t, the matrix at the origin. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the degree-normalised projection of the arrays as the region finds them. -/
theorem flushed_eq (c : Dev nD) (t : Fin cfg1.N) :
    (dat1 (F := Ideal) V c).flushed 3 t
      = ((cfg1.win 3).blk t).view.read (Elt Ideal) (projected (V c main_v15) (V c main_v22) (V c main_arg5)) := by
  show (cfg1.win 3).cut (grid1.coords t) ((dat1 V c).after 3 t) = _
  rw [after1_3]
  unfold out1_3
  rw [View.canon_unit_zero origin]
  simp only [View.ld_unit_zero (S := S2000x32) origin, View.ld_unit_zero (S := S2000x1) origin,
    View.ld_unit_zero (S := S32x16) origin]
  obtain ⟨e00, e01, e10, e11, e20, e21, e30, e31⟩ := blockIndex t
  have ht : t.val < 10 := t.isLt
  funext j
  obtain ⟨p, q, rfl⟩ : ∃ (p : Fin 2000) (q : Fin 16), j = ix2 p q := ⟨j 0, j 1, eq_ix2 j⟩
  show k1_pay1 (iblk1 V c 0 t) (iblk1 V c 1 t) (iblk1 V c 2 t) (ix2 p q)
    = projected (V c main_v15) (V c main_v22) (V c main_arg5) (((cfg1.win 3).blk t).view.emb (ix2 p q))
  refine (Cert.KernelIdeal.Bodies.proj_body _ _ _ p q).trans ?_
  have hrow : t.val * 2000 + p.val < 20000 := by have := p.isLt; omega
  have he : ((cfg1.win 3).blk t).view.emb (ix2 p q) = ix2 (⟨t.val * 2000 + p.val, hrow⟩ : Fin 20000) q := by
    funext a; apply Fin.ext
    match a with
    | ⟨0, _⟩ => show win1_3.index t (0 : Fin 2) * 2000 + 1 * p.val = t.val * 2000 + p.val; omega
    | ⟨1, _⟩ => show win1_3.index t (1 : Fin 2) * 16 + 1 * q.val = q.val; omega
  rw [he, projected_ix2]
  refine Finset.sum_congr rfl fun k _ => congrArg₂ (· * ·) (congrArg₂ Ideal.div ?_ (congrArg₂ max ?_ rfl)) ?_
  · have h0 : ((cfg1.win 0).blk t).view.emb (ix2 p k) = ix2 (⟨t.val * 2000 + p.val, hrow⟩ : Fin 20000) k := by
      funext a; apply Fin.ext
      match a with
      | ⟨0, _⟩ => show win1_0.index t (0 : Fin 2) * 2000 + 1 * p.val = t.val * 2000 + p.val; omega
      | ⟨1, _⟩ => show win1_0.index t (1 : Fin 2) * 32 + 1 * k.val = k.val; omega
    show V c main_v15 (((cfg1.win 0).blk t).view.emb (ix2 p k)) = V c main_v15 (ix2 ⟨t.val * 2000 + p.val, hrow⟩ k)
    rw [h0]
  · have h1 : ((cfg1.win 1).blk t).view.emb (ix2 p (0 : Fin 1)) = ix2 (⟨t.val * 2000 + p.val, hrow⟩ : Fin 20000) (0 : Fin 1) := by
      funext a; apply Fin.ext
      match a with
      | ⟨0, _⟩ => show win1_1.index t (0 : Fin 2) * 2000 + 1 * p.val = t.val * 2000 + p.val; omega
      | ⟨1, _⟩ => show win1_1.index t (1 : Fin 2) * 1 + 1 * 0 = 0; omega
    show V c main_v22 (((cfg1.win 1).blk t).view.emb (ix2 p (0 : Fin 1))) = V c main_v22 (ix2 ⟨t.val * 2000 + p.val, hrow⟩ (0 : Fin 1))
    rw [h1]
  · have h2 : ((cfg1.win 2).blk t).view.emb (ix2 k q) = ix2 k q := by
      funext a; apply Fin.ext
      match a with
      | ⟨0, _⟩ => show win1_2.index t (0 : Fin 2) * 32 + 1 * k.val = k.val; omega
      | ⟨1, _⟩ => show win1_2.index t (1 : Fin 2) * 16 + 1 * q.val = q.val; omega
    show V c main_arg5 (((cfg1.win 2).blk t).view.emb (ix2 k q)) = V c main_arg5 (ix2 k q)
    rw [h2]

/-- An index of the output array is in point t's block iff each coordinate is in the block's range on its axis. -/
theorem mem_blk (t : Fin cfg1.N) (i : S20000x16.Idx) :
    i ∈ ((cfg1.win 3).blk t).view.set ↔ ∀ a : Fin 2, win1_3.index t a * S2000x16.size a ≤ (i a).val
      ∧ (i a).val < win1_3.index t a * S2000x16.size a + S2000x16.size a := by
  show i ∈ ((View.whole main_v23).slice (win1_3.rect t)).set ↔ _
  rw [View.set_slice_whole, Rect.mem_set_unit]
  exact Iff.rfl

/-- Every index of the output array is in some point's block: row r is in block r / 2000. -/
theorem cover (i : S20000x16.Idx) :
    ∃ t : Fin cfg1.N, (cfg1.win 3).flush t = true ∧ i ∈ ((cfg1.win 3).blk t).view.set := by
  have hi0 : (i 0).val < 20000 := (i 0).isLt
  have hi1 : (i 1).val < 16 := (i 1).isLt
  have hN : (i 0).val / 2000 < cfg1.N := by show _ < 10; omega
  refine ⟨⟨(i 0).val / 2000, hN⟩, flush1_3 _, ?_⟩
  obtain ⟨-, -, -, -, -, -, e30, e31⟩ := blockIndex ⟨(i 0).val / 2000, hN⟩
  rw [mem_blk]
  intro a
  match a with
  | ⟨0, _⟩ =>
    show win1_3.index ⟨(i 0).val / 2000, hN⟩ (0 : Fin 2) * 2000 ≤ (i 0).val
      ∧ (i 0).val < win1_3.index ⟨(i 0).val / 2000, hN⟩ (0 : Fin 2) * 2000 + 2000
    rw [e30]; show (i 0).val / 2000 * 2000 ≤ (i 0).val ∧ (i 0).val < (i 0).val / 2000 * 2000 + 2000; omega
  | ⟨1, _⟩ =>
    show win1_3.index ⟨(i 0).val / 2000, hN⟩ (1 : Fin 2) * 16 ≤ (i 1).val
      ∧ (i 1).val < win1_3.index ⟨(i 0).val / 2000, hN⟩ (1 : Fin 2) * 16 + 16
    rw [e31]; omega

/-- After the region its output array is the degree-normalised projection of the arrays it found. -/
theorem final (c : Dev nD) :
    (dat1 (F := Ideal) V c).arrAt 3 cfg1.N = projected (V c main_v15) (V c main_v22) (V c main_arg5) :=
  (dat1 (F := Ideal) V c).arrAt_eq_of_cover 3 _ (fun t _ => flushed_eq V c t) cover

end Cert.KernelIdeal.ProjRegion

end
-- ==== Proof.ReferenceValue.lean ====
/-
  The reference's result as the specification.

  The reference multiplies the [200000, 1024] features by the [1024, 32] matrix and divides each row by its normaliser;
  gathers rows of that array along the edges' source ids and adds them into the edges' target rows; divides each target
  row by the larger of its degree and one; and multiplies by the [32, 16] matrix. The gather and the scatter-add are
  carried as one function `segSum` of the projected array and the edge list, never opened: the kernel program applies
  the same host operations to its own projected array. The degree vector is the reference's own stage.
-/
import proofs.«160293_j32435593019950_1_alg».proof.Proof.Gen.ReferenceIdeal.Read
import proofs.«160293_j32435593019950_1_alg».proof.Proof.MeanAggregate

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.MeanAggregate

section
variable {F : FTy → Type} [FloatOps F]

/-- Per-target sums of the rows of `x` gathered along the edges: the gather at the (wrapped) source ids, then the
    scatter-add into zeros at the target ids. -/
def segSum (x : (⟨S200000x32, .f32⟩ : BufTy).Contents (Elt F)) (x2 : (⟨S2x4000000, .i32⟩ : BufTy).Contents (Elt F)) :
    (⟨S20000x32, .f32⟩ : BufTy).Contents (Elt F) :=
  Host.scatterAdd scatter_S20000x32_S4000000x1_S4000000x32_1_0_0_1 (val_main_v15 (F := F)) (val_main_v16 (F := F) x2)
    (Host.gather gather_S200000x32_S4000000x1_S4000000x32_1_0_n_n_0_1_132 x (val_main_v11 (F := F) x2))

theorem val_main_v17_eq (x0 : (⟨S200000x1024, .f32⟩ : BufTy).Contents (Elt F)) (x1 : (⟨S200000, .f32⟩ : BufTy).Contents (Elt F))
    (x2 : (⟨S2x4000000, .i32⟩ : BufTy).Contents (Elt F)) (x4 : (⟨S1024x32, .f32⟩ : BufTy).Contents (Elt F)) :
    val_main_v17 (F := F) x0 x1 x2 x4 = segSum (F := F) (val_main_v3 (F := F) x0 x1 x4) x2 := rfl

end

/-- The reference's normalised projection is the row-normalised projection with the normalisers as a column. -/
theorem projected_rows (x0 : (⟨S200000x1024, .f32⟩ : BufTy).Contents (Elt Ideal)) (x1 : (⟨S200000, .f32⟩ : BufTy).Contents (Elt Ideal))
    (x4 : (⟨S1024x32, .f32⟩ : BufTy).Contents (Elt Ideal)) :
    val_main_v3 (F := Ideal) x0 x1 x4 = embedded x0 x4 (col x1) := by
  funext i
  obtain ⟨p, q, rfl⟩ : ∃ (p : Fin 200000) (q : Fin 32), i = ix2 p q := ⟨i 0, i 1, eq_ix2 i⟩
  rw [val_main_v3_apply, val_main_v0_apply, val_main_v2_apply, val_main_v1_apply, embedded_ix2]
  refine congrArg₂ Ideal.div (Finset.sum_congr rfl fun k _ => congrArg₂ (· * ·) (congrArg x0 ?_) (congrArg x4 ?_)) (congrArg x1 ?_)
  · funext a; apply Fin.ext; match a with | ⟨0, _⟩ => rfl | ⟨1, _⟩ => rfl
  · funext a; apply Fin.ext; match a with | ⟨0, _⟩ => rfl | ⟨1, _⟩ => rfl
  · funext a; apply Fin.ext; match a with | ⟨0, _⟩ => rfl

/-- The reference's result is the degree-normalised projection of the per-target sums of the row-normalised
    projection. -/
theorem result_eq (x0 : (⟨S200000x1024, .f32⟩ : BufTy).Contents (Elt Ideal)) (x1 : (⟨S200000, .f32⟩ : BufTy).Contents (Elt Ideal))
    (x2 : (⟨S2x4000000, .i32⟩ : BufTy).Contents (Elt Ideal)) (x3 : (⟨S20000x2, .i32⟩ : BufTy).Contents (Elt Ideal))
    (x4 : (⟨S1024x32, .f32⟩ : BufTy).Contents (Elt Ideal)) (x5 : (⟨S32x16, .f32⟩ : BufTy).Contents (Elt Ideal)) :
    val_main_v29 (F := Ideal) x0 x1 x2 x3 x4 x5
      = projected (segSum (F := Ideal) (embedded x0 x4 (col x1)) x2) (col (val_main_v23 (F := Ideal) x3)) x5 := by
  funext i
  obtain ⟨p, q, rfl⟩ : ∃ (p : Fin 20000) (q : Fin 16), i = ix2 p q := ⟨i 0, i 1, eq_ix2 i⟩
  rw [val_main_v29_apply, projected_ix2]
  refine Finset.sum_congr rfl fun k _ => congrArg₂ (· * ·) ?_ (congrArg x5 ?_)
  · rw [val_main_v28_apply, val_main_v17_eq, projected_rows, val_main_v27_apply, val_main_v26_apply, val_main_v25_apply,
      val_main_v24_apply, val_main_cst_1_apply]
    refine congrArg₂ Ideal.div (congrArg _ ?_) (congrArg₂ max (congrArg _ ?_) rfl)
    · funext a; apply Fin.ext; match a with | ⟨0, _⟩ => rfl | ⟨1, _⟩ => rfl
    · funext a; apply Fin.ext; match a with | ⟨0, _⟩ => rfl
  · funext a; apply Fin.ext; match a with | ⟨0, _⟩ => rfl | ⟨1, _⟩ => rfl

end Cert.ReferenceIdeal.RefValue

end
-- ==== Proof.KernelValue.lean ====
/-
  The kernel program's result as the specification.

  Reading the result buffer back through the boundaries: after the second region it is the degree-normalised
  projection of what that region found — the per-target sums array, the degree column and the [32, 16] matrix. The
  second stretch of host operations computed the sums from the first region's output (the gather along the edges'
  source ids, the scatter-add at their target ids) and the degree column from the range list; the first region's output
  is the row-normalised projection of the features, the [1024, 32] matrix and the normalisers written as a column by the
  first stretch's one reshape. No operation writes an argument, so each argument read at any boundary is the launch
  memory's.
-/
import proofs.«160293_j32435593019950_1_alg».proof.Proof.Gen.KernelIdeal.Frame
import proofs.«160293_j32435593019950_1_alg».proof.Proof.EmbedRegion
import proofs.«160293_j32435593019950_1_alg».proof.Proof.ProjRegion
import proofs.«160293_j32435593019950_1_alg».proof.Proof.ReferenceValue
import proofs.«160293_j32435593019950_1_alg».proof.Proof.LibColumn
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo Cert.MeanAggregate

variable (m : (ℓ : Loc nD τ sig) → Buf (Elt Ideal) ℓ) (ρ : Dev nD → PrngReg)

/-! ## The arguments at the first region's entry -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
/-- The normalisers as a column: the first stretch's reshape. -/
theorem W1_v0 (c : Dev nD) : W1 m ρ c (Proc.devRef .tc main_v0)
    = shapeCast S200000x1 (m ((c : Thread nD τ).loc main_arg1)) shapeCasts_S200000_S200000x1 := by
  show StableHlo.after hostOps0 (W0 m ρ c) (Proc.devRef .tc main_v0) = _
  after_results; rfl

/-! ## The first region's output -/

theorem W2_v1 (c : Dev nD) : W2 m ρ c (Proc.devRef .tc main_v1)
    = embedded (m ((c : Thread nD τ).loc main_arg0)) (m ((c : Thread nD τ).loc main_arg4)) (col (m ((c : Thread nD τ).loc main_arg1))) := by
  refine (W2_arr m ρ c 3).trans ((Cert.KernelIdeal.EmbedRegion.final (V1 m ρ) c).trans ?_)
  show embedded (W1 m ρ c (Proc.devRef .tc main_arg0)) (W1 m ρ c (Proc.devRef .tc main_arg4)) (W1 m ρ c (Proc.devRef .tc main_v0)) = _
  rw [W1_arg0, W1_arg4, W1_v0]
  refine embedded_congr_col _ _ _ _ fun p => ?_
  exact Cert.LibColumn.shapeCast_a_a1_apply _ shapeCasts_S200000_S200000x1 p (0 : Fin 1)

/-! ## The arguments at the first region's exit: the region writes none of them -/

theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg5 (c : Dev nD) : W2 m ρ c (Proc.devRef .tc main_arg5) = m ((c : Thread nD τ).loc main_arg5) :=
  (W2_of_ne m ρ c main_arg5 (by decide)).trans (W1_arg5 m ρ c)

/-! ## The second stretch: the per-target sums, the degree column, the matrix -/

/-- The sums array the second region finds: the shared gather and scatter-add of the first region's output along the
    edge list. -/
theorem W3_v15 (c : Dev nD) : W3 m ρ c (Proc.devRef .tc main_v15)
    = Cert.ReferenceIdeal.RefValue.segSum (F := Ideal) (W2 m ρ c (Proc.devRef .tc main_v1)) (W2 m ρ c (Proc.devRef .tc main_arg2)) := by
  show StableHlo.after hostOps1 (W2 m ρ c) (Proc.devRef .tc main_v15) = _
  after_results
  rfl

/-- The degree column the second region finds: the degree vector reshaped to one column. -/
theorem W3_v22 (c : Dev nD) : W3 m ρ c (Proc.devRef .tc main_v22)
    = shapeCast S20000x1 (Cert.ReferenceIdeal.Read.val_main_v23 (F := Ideal) (W2 m ρ c (Proc.devRef .tc main_arg3))) shapeCasts_S20000_S20000x1 := by
  show StableHlo.after hostOps1 (W2 m ρ c) (Proc.devRef .tc main_v22) = _
  after_results
  rfl

theorem W3_arg5 (c : Dev nD) : W3 m ρ c (Proc.devRef .tc main_arg5) = m ((c : Thread nD τ).loc main_arg5) := by
  show StableHlo.after hostOps1 (W2 m ρ c) (Proc.devRef .tc main_arg5) = _
  after_results
  exact W2_arg5 m ρ c

/-! ## The result -/

/-- The result buffer after the run: the degree-normalised projection of the per-target sums of the row-normalised
    projection, all of the launch memory's arguments. -/
theorem result (c : Dev nD) : W4 m ρ c (Proc.devRef .tc main_v23)
    = projected
        (Cert.ReferenceIdeal.RefValue.segSum (F := Ideal)
          (embedded (m ((c : Thread nD τ).loc main_arg0)) (m ((c : Thread nD τ).loc main_arg4)) (col (m ((c : Thread nD τ).loc main_arg1))))
          (m ((c : Thread nD τ).loc main_arg2)))
        (col (Cert.ReferenceIdeal.Read.val_main_v23 (F := Ideal) (m ((c : Thread nD τ).loc main_arg3))))
        (m ((c : Thread nD τ).loc main_arg5)) := by
  refine (W4_arr m ρ c 3).trans ((Cert.KernelIdeal.ProjRegion.final (V3 m ρ) c).trans ?_)
  show projected (W3 m ρ c (Proc.devRef .tc main_v15)) (W3 m ρ c (Proc.devRef .tc main_v22)) (W3 m ρ c (Proc.devRef .tc main_arg5)) = _
  rw [W3_v15, W3_v22, W3_arg5, W2_v1, W2_arg2, W2_arg3]
  refine projected_congr_col _ _ _ _ fun p => ?_
  exact Cert.LibColumn.shapeCast_a_a1_apply _ shapeCasts_S20000_S20000x1 p (0 : Fin 1)

end Cert.KernelIdeal.KernelValue

end
-- ==== Proof.lean ====
/-
  A normalised mean aggregation over a bipartite edge list, computed two ways, agrees on the extended reals.

  Both programs take features f : [200000, 1024], per-source normalisers n : [200000], an edge list (source ids and target
  ids, 4000000 of each), a range list r : [20000, 2], and matrices E : [1024, 32], W : [32, 16], and compute

      x (i, j)   = (Σ k, f (i, k) · E (k, j)) / n (i)
      s          = the rows of x gathered at the edges' source ids and added into the rows named by their target ids
      d (t)      = r (t, 1) − r (t, 0), as a float
      out (t, q) = Σ e, (s (t, e) / max (d (t)) 1) · W (e, q).

  One program computes x and out in two pipelined regions, 2000 rows per grid point, with the normalisers and the
  degrees laid out as one-column arrays and the products' operands narrowed to a shorter float format; the other is the
  plain sequence of array operations. On the extended reals a change of float format is the identity, a matrix product
  into zeros is the sum of products, and a block of rows of x (or of out) depends only on the same rows of the inputs, so
  each region's output array is x (or out) of the arrays the region finds. The gather and the scatter-add are the same
  host operations in both programs and are carried as one function of x and the edge list, never opened. No algebraic
  law is used beyond these readings, so the finiteness precondition is not consulted.

  The frames of the two kernel programs are the generated ones; the reference's is its generated run with the result
  dropped; no rewrite was applied when the kernel was idealised, so that conjunct is trivial.
-/
import proofs.«160293_j32435593019950_1_alg».proof.Defs
import proofs.«160293_j32435593019950_1_alg».proof.Proof.Gen.Kernel
import proofs.«160293_j32435593019950_1_alg».proof.Proof.Gen.Kernel.Frame
import proofs.«160293_j32435593019950_1_alg».proof.Proof.Gen.KernelIdeal
import proofs.«160293_j32435593019950_1_alg».proof.Proof.Gen.KernelIdeal.Frame
import proofs.«160293_j32435593019950_1_alg».proof.Proof.Gen.ReferenceIdeal
import proofs.«160293_j32435593019950_1_alg».proof.Proof.Gen.ReferenceIdeal.Run
import proofs.«160293_j32435593019950_1_alg».proof.Proof.Gen.ReferenceIdeal.Read
import proofs.«160293_j32435593019950_1_alg».proof.Proof.Gen.Pre_finite_inputs
import proofs.«160293_j32435593019950_1_alg».proof.Proof.KernelRun
import proofs.«160293_j32435593019950_1_alg».proof.Proof.KernelValue
import proofs.«160293_j32435593019950_1_alg».proof.Proof.ReferenceValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the six arguments both programs end with the same result array: each is the
    degree-normalised projection of the per-target sums of the row-normalised projection of its arguments. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.KernelValue.result m ρ c), (h c).2⟩)
      (Cert.KernelIdeal.RunValue.run (F := Ideal) m ρ), ?_⟩
  refine (θ_run Cert.ReferenceIdeal.defs _ _).mono (fun _ h c => ⟨?_, (h c).2⟩)
    (Cert.ReferenceIdeal.Value.run (F := Ideal) m' ρ')
  obtain ⟨h0, h1, h2, h3, h4, h5⟩ := hagree c
  rw [(h c).1, Cert.ReferenceIdeal.Read.val_main_v29_eq, Cert.ReferenceIdeal.RefValue.result_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
